-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x512 : Shape := ⟨3, ![2, 512, 512]⟩
abbrev S2x128x512 : Shape := ⟨3, ![2, 128, 512]⟩
abbrev S1024x1024 : Shape := ⟨2, ![1024, 1024]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel
  bcast_S_S2x128x512 : S_.BroadcastsInDim S2x128x512 (![] : Fin 0 → Fin S2x128x512.rank)
  reducesTo_S2x128x512_S_d0_1_2 : S2x128x512.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x512x512 .f32) (main_arg1 : FVec F S2x128x512 .f32) (main_arg2 : FVec F S1024x1024 .f32) : IVec S_ 1 :=
  let main_v0 : FVec F S2x512x512 .f32 := Host.absf main_arg0
  let main_cst : FVec F S_ .f32 := constant S_ .f32 0x7F800000#32
  let main_v1 : FVec F S2x512x512 .f32 := broadcastInDim S2x512x512 ![] bcast_S_S2x512x512 main_cst
  let main_v2 : IVec S2x512x512 1 := cmpf .olt main_v0 main_v1
  let main_c : IVec S_ 1 := constantI S_ 1 1#1
  let main_v3 : IVec S_ 1 := (fun x v => Host.reduce IntOp.andi x v reducesTo_S2x512x512_S_d0_1_2 h_S_) main_v2 main_c
  let main_v4 : FVec F S2x128x512 .f32 := Host.absf main_arg1
  let main_cst_0 : FVec F S_ .f32 := constant S_ .f32 0x7F800000#32
  let main_v5 : FVec F S2x128x512 .f32 := broadcastInDim S2x128x512 ![] bcast_S_S2x128x512 main_cst_0
  let main_v6 : IVec S2x128x512 1 := cmpf .olt main_v4 main_v5
  let main_c_1 : IVec S_ 1 := constantI S_ 1 1#1
  let main_v7 : IVec S_ 1 := (fun x v => Host.reduce IntOp.andi x v reducesTo_S2x128x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x512x512 : Shape := ⟨3, ![2, 512, 512]⟩
abbrev S2x128x512 : Shape := ⟨3, ![2, 128, 512]⟩
abbrev S1024x1024 : Shape := ⟨2, ![1024, 1024]⟩
abbrev S1024x512 : Shape := ⟨2, ![1024, 512]⟩
abbrev S2x128x1024 : Shape := ⟨3, ![2, 128, 1024]⟩
abbrev S1x128x512 : Shape := ⟨3, ![1, 128, 512]⟩
abbrev S1x128x1024 : Shape := ⟨3, ![1, 128, 1024]⟩
abbrev S128x512 : Shape := ⟨2, ![128, 512]⟩
abbrev S128x1024 : Shape := ⟨2, ![128, 1024]⟩
abbrev S2x512x128x1024 : Shape := ⟨4, ![2, 512, 128, 1024]⟩
abbrev S1x16x512 : Shape := ⟨3, ![1, 16, 512]⟩
abbrev S1x16x128x1024 : Shape := ⟨4, ![1, 16, 128, 1024]⟩
abbrev S16x512 : Shape := ⟨2, ![16, 512]⟩
abbrev S16x1024 : Shape := ⟨2, ![16, 1024]⟩
abbrev S16x1x1024 : Shape := ⟨3, ![16, 1, 1024]⟩
abbrev S16x128x1024 : Shape := ⟨3, ![16, 128, 1024]⟩

abbrev nBuf : Space → Nat
  | .hbm => 8
  | .vmem => 12
  | .smem => 0
  | _ => 0

abbrev bufTy : (tb : Table) → Fin (tcTables nBuf tb) → BufTy
  | .hbm, ⟨0, _⟩ => ⟨S2x512x512, .f32⟩
  | .hbm, ⟨1, _⟩ => ⟨S2x128x512, .f32⟩
  | .hbm, ⟨2, _⟩ => ⟨S1024x1024, .f32⟩
  | .hbm, ⟨3, _⟩ => ⟨S1024x512, .f32⟩
  | .hbm, ⟨4, _⟩ => ⟨S1024x512, .f32⟩
  | .hbm, ⟨5, _⟩ => ⟨S1024x512, .bf16⟩
  | .hbm, ⟨6, _⟩ => ⟨S2x128x1024, .f32⟩
  | .hbm, ⟨7, _⟩ => ⟨S2x512x128x1024, .f32⟩
  | .local _ .vmem, ⟨0, _⟩ => ⟨S1x128x512, .f32⟩
  | .local _ .vmem, ⟨1, _⟩ => ⟨S1x128x512, .f32⟩
  | .local _ .vmem, ⟨2, _⟩ => ⟨S1024x512, .f32⟩
  | .local _ .vmem, ⟨3, _⟩ => ⟨S1x128x1024, .f32⟩
  | .local _ .vmem, ⟨4, _⟩ => ⟨S1x128x1024, .f32⟩
  | .local _ .vmem, ⟨5, _⟩ => ⟨S1x16x512, .f32⟩
  | .local _ .vmem, ⟨6, _⟩ => ⟨S1x16x512, .f32⟩
  | .local _ .vmem, ⟨7, _⟩ => ⟨S1024x512, .bf16⟩
  | .local _ .vmem, ⟨8, _⟩ => ⟨S1x128x1024, .f32⟩
  | .local _ .vmem, ⟨9, _⟩ => ⟨S1x128x1024, .f32⟩
  | .local _ .vmem, ⟨10, _⟩ => ⟨S1x16x128x1024, .f32⟩
  | .local _ .vmem, ⟨11, _⟩ => ⟨S1x16x128x1024, .f32⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x16x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x16x128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  slices_S1024x1024_S1024x512_0_0 : S1024x1024.Slices ![0, 0] S1024x512
  slices_S1024x1024_S1024x512_0_512 : S1024x1024.Slices ![0, 512] S1024x512
  bitsLt_bf16_f32 : FTy.bits .bf16 < FTy.bits .f32
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  shapeCasts_S16x1024_S16x1x1024 : S16x1024.ShapeCasts S16x1x1024
  broadcasts_S16x1x1024_S16x128x1024 : S16x1x1024.Broadcasts S16x128x1024
  broadcasts_S1x128x1024_S16x128x1024 : S1x128x1024.Broadcasts S16x128x1024
  inb_S1x16x128x1024_S1x16x128x1024_0_0_0_0 : ∀ a, (![0, 0, 0, 0] : Fin 4 → Nat) a + S1x16x128x1024.size a ≤ S1x16x128x1024.size a
  h_S1x16x128x1024 : 0 < S1x16x128x1024.numel
  shapeCasts_S1x16x128x1024_S16x128x1024 : S1x16x128x1024.ShapeCasts S16x128x1024
  shapeCasts_S16x128x1024_S1x16x128x1024 : S16x128x1024.ShapeCasts S1x16x128x1024
  dot_S128x512_S1024x512_S128x1024_1_1_0_0_n_n_wf : DotDims.WF S128x512 S1024x512 S128x1024 [1] [1] [0] [0] [] []
  dot_S16x512_S1024x512_S16x1024_1_1_0_0_n_n_wf : DotDims.WF S16x512 S1024x512 S16x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S2x128x512.size a
  hwx0_0 : ∀ i : grid0.Coords, EltTy.bits .f32 = 32 ∨ (Rect.block (s := S2x128x512) S1x128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1024.size a ≤ S2x128x1024.size a
  hwx0_2 : ∀ i : grid0.Coords, EltTy.bits .f32 = 32 ∨ (Rect.block (s := S2x128x1024) S1x128x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x512.size a ≤ S2x512x512.size a
  hwx1_0 : ∀ i : grid1.Coords, EltTy.bits .f32 = 32 ∨ (Rect.block (s := S2x512x512) S1x16x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .bf16 = 32 ∨ (Rect.block (s := S1024x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x1024.size a ≤ S2x128x1024.size a
  hwx1_2 : ∀ i : grid1.Coords, EltTy.bits .f32 = 32 ∨ (Rect.block (s := S2x128x1024) S1x128x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16x128x1024.size a ≤ S2x512x128x1024.size a
  hwx1_3 : ∀ i : grid1.Coords, EltTy.bits .f32 = 32 ∨ (Rect.block (s := S2x512x128x1024) S1x16x128x1024.size (cc1_transform_3 i) (hinb1_3 i)).WholeWords (EltTy.packing .f32)

variable [Facts₀]

def dot_S128x512_S1024x512_S128x1024_1_1_0_0_n_n : DotDims S128x512 S1024x512 S128x1024 where
  lhsContracting := [1]
  rhsContracting := [1]
  lhsNonContracting := [0]
  rhsNonContracting := [0]
  lhsBatch := []
  rhsBatch := []
  wf := dot_S128x512_S1024x512_S128x1024_1_1_0_0_n_n_wf
def dot_S16x512_S1024x512_S16x1024_1_1_0_0_n_n : DotDims S16x512 S1024x512 S16x1024 where
  lhsContracting := [1]
  rhsContracting := [1]
  lhsNonContracting := [0]
  rhsNonContracting := [0]
  lhsBatch := []
  rhsBatch := []
  wf := dot_S16x512_S1024x512_S16x1024_1_1_0_0_n_n_wf

abbrev win0_0 : Pipeline.Window sig grid0 :=
  Pipeline.Window.ofSpec (Memref.whole main_arg1) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x16x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x16x128x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x512x512 : Shape := ⟨3, ![2, 512, 512]⟩
abbrev S2x128x512 : Shape := ⟨3, ![2, 128, 512]⟩
abbrev S1024x1024 : Shape := ⟨2, ![1024, 1024]⟩
abbrev S1024x512 : Shape := ⟨2, ![1024, 512]⟩
abbrev S2x512x1024 : Shape := ⟨3, ![2, 512, 1024]⟩
abbrev S2x128x1024 : Shape := ⟨3, ![2, 128, 1024]⟩
abbrev S2x512x1x1024 : Shape := ⟨4, ![2, 512, 1, 1024]⟩
abbrev S2x1x128x1024 : Shape := ⟨4, ![2, 1, 128, 1024]⟩
abbrev S2x512x128x1024 : Shape := ⟨4, ![2, 512, 128, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S2x128x512, .f32⟩
  | .hbm, ⟨2, _⟩ => ⟨S1024x1024, .f32⟩
  | .hbm, ⟨3, _⟩ => ⟨S1024x512, .f32⟩
  | .hbm, ⟨4, _⟩ => ⟨S1024x512, .f32⟩
  | .hbm, ⟨5, _⟩ => ⟨S2x512x1024, .f32⟩
  | .hbm, ⟨6, _⟩ => ⟨S2x128x1024, .f32⟩
  | .hbm, ⟨7, _⟩ => ⟨S2x512x1x1024, .f32⟩
  | .hbm, ⟨8, _⟩ => ⟨S2x1x128x1024, .f32⟩
  | .hbm, ⟨9, _⟩ => ⟨S2x512x128x1024, .f32⟩
  | .hbm, ⟨10, _⟩ => ⟨S2x512x128x1024, .f32⟩
  | .hbm, ⟨11, _⟩ => ⟨S2x512x128x1024, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  slices_S1024x1024_S1024x512_0_0 : S1024x1024.Slices ![0, 0] S1024x512
  slices_S1024x1024_S1024x512_0_512 : S1024x1024.Slices ![0, 512] S1024x512
  bcast_S2x512x1024_S2x512x1x1024_0_1_3 : S2x512x1024.BroadcastsInDim S2x512x1x1024 (![0, 1, 3] : Fin 3 → Fin S2x512x1x1024.rank)
  bcast_S2x128x1024_S2x1x128x1024_0_2_3 : S2x128x1024.BroadcastsInDim S2x1x128x1024 (![0, 2, 3] : Fin 3 → Fin S2x1x128x1024.rank)
  bcast_S2x512x1x1024_S2x512x128x1024_0_1_2_3 : S2x512x1x1024.BroadcastsInDim S2x512x128x1024 (![0, 1, 2, 3] : Fin 4 → Fin S2x512x128x1024.rank)
  bcast_S2x1x128x1024_S2x512x128x1024_0_1_2_3 : S2x1x128x1024.BroadcastsInDim S2x512x128x1024 (![0, 1, 2, 3] : Fin 4 → Fin S2x512x128x1024.rank)
  dot_S2x512x512_S1024x512_S2x512x1024_2_1_01_0_n_n_wf : DotDims.WF S2x512x512 S1024x512 S2x512x1024 [2] [1] [0, 1] [0] [] []
  dot_S2x128x512_S1024x512_S2x128x1024_2_1_01_0_n_n_wf : DotDims.WF S2x128x512 S1024x512 S2x128x1024 [2] [1] [0, 1] [0] [] []

variable [Facts₀]

def dot_S2x512x512_S1024x512_S2x512x1024_2_1_01_0_n_n : DotDims S2x512x512 S1024x512 S2x512x1024 where
  lhsContracting := [2]
  rhsContracting := [1]
  lhsNonContracting := [0, 1]
  rhsNonContracting := [0]
  lhsBatch := []
  rhsBatch := []
  wf := dot_S2x512x512_S1024x512_S2x512x1024_2_1_01_0_n_n_wf
def dot_S2x128x512_S1024x512_S2x128x1024_2_1_01_0_n_n : DotDims S2x128x512 S1024x512 S2x128x1024 where
  lhsContracting := [2]
  rhsContracting := [1]
  lhsNonContracting := [0, 1]
  rhsNonContracting := [0]
  lhsBatch := []
  rhsBatch := []
  wf := dot_S2x128x512_S1024x512_S2x128x1024_2_1_01_0_n_n_wf

class Facts : Prop extends Facts₀ where

variable [Facts]
-- ==== Proof.Spec.lean ====
/-
  The joint network's output as one function of its operands, index by index, on the extended reals.

  An encoder activation `a0 : [2, 512, 512]`, a decoder activation `a1 : [2, 128, 512]` and the two halves
  `wE, wD : [1024, 512]` of the projection's weight (its columns acting on the encoder features and on the decoder
  features). Entry `(b, t, u, v)` of the result is the inner product of encoder row `(b, t)` with row `v` of `wE`
  plus the inner product of decoder row `(b, u)` with row `v` of `wD`: the projection of the concatenated pair
  `(enc[b, t], dec[b, u])` with no bias, split along the concatenation.
-/
import Idealize.ShloMosaic.Lib.ValueIdx

noncomputable section

open scoped BigOperators

namespace Cert.Joint

open Idealize.ShloMosaic Idealize.ShloMosaic.ValueIdx

/-- Row `(b, p)` of a batch of matrices `x : [B, n, 512]` against row `v` of `w : [1024, 512]`. -/
def rowDot {B n : ℕ} (x : (⟨3, ![B, n, 512]⟩ : Shape).Idx → EReal) (w : (⟨2, ![1024, 512]⟩ : Shape).Idx → EReal)
    (b : Fin B) (p : Fin n) (v : Fin 1024) : EReal :=
  ∑ j : Fin 512, x (ix3 b p j) * w (ix2 v j)

/-- The decoder's projection `[2, 128, 1024]`: entry `(b, u, v)` is decoder row `(b, u)` against row `v` of `wD`. -/
def decProj (a1 : (⟨3, ![2, 128, 512]⟩ : Shape).Idx → EReal) (wD : (⟨2, ![1024, 512]⟩ : Shape).Idx → EReal) :
    (⟨3, ![2, 128, 1024]⟩ : Shape).Idx → EReal :=
  fun i => rowDot a1 wD (i 0) (i 1) (i 2)

/-- The joint output `[2, 512, 128, 1024]`: entry `(b, t, u, v)` is encoder row `(b, t)` against row `v` of `wE` plus
    decoder row `(b, u)` against row `v` of `wD`. -/
def joint (a0 : (⟨3, ![2, 512, 512]⟩ : Shape).Idx → EReal) (a1 : (⟨3, ![2, 128, 512]⟩ : Shape).Idx → EReal)
    (wE wD : (⟨2, ![1024, 512]⟩ : Shape).Idx → EReal) : (⟨4, ![2, 512, 128, 1024]⟩ : Shape).Idx → EReal :=
  fun i => rowDot a0 wE (i 0) (i 1) (i 3) + rowDot a1 wD (i 0) (i 2) (i 3)

/-- An encoder projection added onto a given decoder projection `d : [2, 128, 1024]`: entry `(b, t, u, v)` is encoder row
    `(b, t)` against row `v` of `wE`, plus `d (b, u, v)`. -/
def addProj (a0 : (⟨3, ![2, 512, 512]⟩ : Shape).Idx → EReal) (wE : (⟨2, ![1024, 512]⟩ : Shape).Idx → EReal)
    (d : (⟨3, ![2, 128, 1024]⟩ : Shape).Idx → EReal) : (⟨4, ![2, 512, 128, 1024]⟩ : Shape).Idx → EReal :=
  fun i => rowDot a0 wE (i 0) (i 1) (i 3) + d (ix3 (i 0) (i 2) (i 3))

/-- The joint output is the encoder's projection added onto the decoder's. -/
theorem joint_eq_addProj (a0 : (⟨3, ![2, 512, 512]⟩ : Shape).Idx → EReal) (a1 : (⟨3, ![2, 128, 512]⟩ : Shape).Idx → EReal)
    (wE wD : (⟨2, ![1024, 512]⟩ : Shape).Idx → EReal) : joint a0 a1 wE wD = addProj a0 wE (decProj a1 wD) := rfl

end Cert.Joint

end
-- ==== Proof.RefValue.lean ====
/-
  The reference computes the joint output. It projects the encoder activation and the decoder activation with the two
  halves of the weight (two contractions over the 512 features), places the encoder's projection `[2, 512, 1024]` along a
  new decoder axis and the decoder's `[2, 128, 1024]` along a new frame axis, spreads both to `[2, 512, 128, 1024]` and
  adds them. Read at `(b, t, u, v)` the two spreads pick entry `(b, t, v)` of the first projection and `(b, u, v)` of the
  second, so the sum is the joint output's entry there.
-/
import proofs.«145612_j2920577761292_2_alg».proof.Proof.Gen.ReferenceIdeal.Read
import proofs.«145612_j2920577761292_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's last stage is the joint output of the two activations and the two column halves of the weight. -/
theorem result_eq (x0 : (⟨S2x512x512, .f32⟩ : BufTy).Contents (Elt Ideal)) (x1 : (⟨S2x128x512, .f32⟩ : BufTy).Contents (Elt Ideal))
    (x2 : (⟨S1024x1024, .f32⟩ : BufTy).Contents (Elt Ideal)) :
    val_main_v8 (F := Ideal) x0 x1 x2
      = Cert.Joint.joint x0 x1 (val_main_v0 (F := Ideal) x2) (val_main_v1 (F := Ideal) x2) := by
  funext i
  obtain ⟨b, t, u, v, rfl⟩ : ∃ (b : Fin 2) (t : Fin 512) (u : Fin 128) (v : Fin 1024), i = ix4 b t u v :=
    ⟨i 0, i 1, i 2, i 3, eq_ix4 i⟩
  rw [val_main_v8_apply, val_main_v6_apply, val_main_v4_apply, val_main_v2_apply,
    val_main_v7_apply, val_main_v5_apply, val_main_v3_apply]
  unfold Cert.Joint.joint Cert.Joint.rowDot
  refine congrArg₂ (· + ·) (Finset.sum_congr rfl fun k _ => ?_) (Finset.sum_congr rfl fun k _ => ?_)
  · refine congrArg₂ (· * ·) (congrArg x0 ?_) (congrArg (val_main_v0 (F := Ideal) x2) ?_)
    · funext a; apply Fin.ext
      match a with
      | ⟨0, _⟩ => rfl
      | ⟨1, _⟩ => rfl
      | ⟨2, _⟩ => rfl
    · funext a; apply Fin.ext
      match a with
      | ⟨0, _⟩ => rfl
      | ⟨1, _⟩ => rfl
  · refine congrArg₂ (· * ·) (congrArg x1 ?_) (congrArg (val_main_v1 (F := Ideal) x2) ?_)
    · funext a; apply Fin.ext
      match a with
      | ⟨0, _⟩ => rfl
      | ⟨1, _⟩ => rfl
      | ⟨2, _⟩ => rfl
    · funext a; apply Fin.ext
      match a with
      | ⟨0, _⟩ => rfl
      | ⟨1, _⟩ => rfl

end Cert.ReferenceIdeal.RefValue

end
-- ==== Proof.LibRowRowDot.lean ====
/-
  A contraction of two matrices along their rows' common axis: `[n, k] × [m, k] → [n, m]`, entry `(p, o)` the inner
  product of row `p` of the left operand with row `o` of the right (a product with the right operand's transpose that
  never forms the transpose). Read at an index on the extended reals: for any contraction record with those
  dimension numbers, and for a matrix unit's product into the zero accumulator.
-/
import Idealize.ShloMosaic.PureOps.Ideal.Laws
import Idealize.ShloMosaic.Lib.ValueIdx

noncomputable section

open scoped BigOperators

namespace Cert.LibRowRowDot

open Idealize.ShloMosaic Idealize.ShloMosaic.ValueIdx

/-- The sum over the contraction index is the sum over the one contracted coordinate j, the left operand read at
    (p, j) and the right at (o, j). -/
theorem sum_contr_rows {n k m : ℕ} (D : DotDims ⟨2, ![n, k]⟩ ⟨2, ![m, k]⟩ ⟨2, ![n, m]⟩)
    (hlc : D.lhsContracting = [1]) (hrc : D.rhsContracting = [1]) (hln : D.lhsNonContracting = [0]) (hrn : D.rhsNonContracting = [0])
    (hlb : D.lhsBatch = []) (hrb : D.rhsBatch = [])
    (lhs : (⟨2, ![n, k]⟩ : Shape).Idx → EReal) (rhs : (⟨2, ![m, k]⟩ : Shape).Idx → EReal) (p : Fin n) (o : Fin m) :
    ∑ q : D.contr.Idx, lhs (D.lhsIdx (ix2 p o) q) * rhs (D.rhsIdx (ix2 p o) q) = ∑ j : Fin k, lhs (ix2 p j) * rhs (ix2 o j) := by
  obtain ⟨lc, rc, ln, rn, lb, rb, wf⟩ := D
  simp only at hlc hrc hln hrn hlb hrb
  subst hlc hrc hln hrn hlb hrb
  rw [← Equiv.sum_comp (contrEquiv1 (DotDims.mk [1] [1] [0] [0] [] [] wf) k rfl rfl).symm]
  refine Finset.sum_congr rfl fun j _ => ?_
  have hk := contrEquiv1_symm_val (DotDims.mk [1] [1] [0] [0] [] [] wf) k rfl rfl j
  have el : (DotDims.mk [1] [1] [0] [0] [] [] wf).lhsIdx (ix2 p o) ((contrEquiv1 (DotDims.mk [1] [1] [0] [0] [] [] wf) k rfl rfl).symm j) = ix2 p j :=
    funext fun a => Fin.ext (by
      match a with
      | ⟨0, _⟩ => rfl
      | ⟨1, _⟩ => exact ((DotDims.mk [1] [1] [0] [0] [] [] wf).lhsIdx_val_of_single rfl _ _).trans hk)
  have er : (DotDims.mk [1] [1] [0] [0] [] [] wf).rhsIdx (ix2 p o) ((contrEquiv1 (DotDims.mk [1] [1] [0] [0] [] [] wf) k rfl rfl).symm j) = ix2 o j :=
    funext fun a => Fin.ext (by
      match a with
      | ⟨0, _⟩ => rfl
      | ⟨1, _⟩ => exact ((DotDims.mk [1] [1] [0] [0] [] [] wf).rhsIdx_val_of_single rfl _ _).trans hk)
  rw [el, er]

/-- A matrix unit's product of rows against rows into the zero accumulator, at (p, o). -/
theorem matmul_zero_rows_apply {n k m : ℕ} {φ₁ φ₂ : FTy} (D : DotDims ⟨2, ![n, k]⟩ ⟨2, ![m, k]⟩ ⟨2, ![n, m]⟩)
    (hlc : D.lhsContracting = [1]) (hrc : D.rhsContracting = [1]) (hln : D.lhsNonContracting = [0]) (hrn : D.rhsNonContracting = [0])
    (hlb : D.lhsBatch = []) (hrb : D.rhsBatch = []) (prec : Option ContractPrecision)
    (lhs : FVec Ideal ⟨2, ![n, k]⟩ φ₁) (rhs : FVec Ideal ⟨2, ![m, k]⟩ φ₂) (p : Fin n) (o : Fin m) :
    FloatOps.matmul D prec lhs rhs (constant ⟨2, ![n, m]⟩ .f32 0x00000000#32) (ix2 p o) = ∑ j : Fin k, lhs (ix2 p j) * rhs (ix2 o j) :=
  (Ideal.matmul_constant_zero_apply D prec lhs rhs (ix2 p o)).trans (sum_contr_rows D hlc hrc hln hrn hlb hrb lhs rhs p o)

end Cert.LibRowRowDot

end
-- ==== Proof.DecBlock.lean ====
/-
  One block of the decoder's projection. The first kernel's body, at a batch index, holds a `[1, 128, 512]` block `x` of
  the decoder activation and the whole `[1024, 512]` decoder half `w` of the weight, and stores the `[1, 128, 1024]`
  block whose entry `(0, r, o)` is row `r` of `x` against row `o` of `w`: the roundings to the narrow format are the
  identity on the extended reals, and the matrix unit's product into a zero accumulator is the plain sum.
-/
import proofs.«145612_j2920577761292_2_alg».proof.Proof.Gen.KernelIdeal.Skeleton
import proofs.«145612_j2920577761292_2_alg».proof.Proof.LibRowRowDot
import Idealize.ShloMosaic.Lib.ValueIdx
import Idealize.ShloMosaic.Lib.ValueLayout
import Idealize.ShloMosaic.Lib.Pipeline.Value

noncomputable section

open scoped BigOperators

namespace Cert.KernelIdeal.Block

open Cert.KernelIdeal Cert.KernelIdeal.Gen Idealize.ShloMosaic Idealize.ShloMosaic.ValueIdx

/-- Entry `(u, r, o)` of the stored block is row `r` of the loaded activation block against row `o` of the weight. -/
theorem decBlock_apply (x0 : Vec Ideal S1x128x512 .f32) (x1 : Vec Ideal S1024x512 .f32) (u : Fin 1) (r : Fin 128) (o : Fin 1024) :
    k0_pay1 (F := Ideal) x0 x1 (ix3 u r o) = ∑ j : Fin 512, x0 (ix3 (0 : Fin 1) r j) * x1 (ix2 o j) := by
  unfold k0_pay1
  refine (shapeCast_ab_1ab_apply _ _ u r o).trans ?_
  refine (Cert.LibRowRowDot.matmul_zero_rows_apply dot_S128x512_S1024x512_S128x1024_1_1_0_0_n_n rfl rfl rfl rfl rfl rfl none _ _ r o).trans ?_
  refine Finset.sum_congr rfl fun j _ => ?_
  refine congrArg₂ (· * ·) ?_ ?_
  · exact (truncf_apply (ψ := .bf16) _ bitsLt_bf16_f32 _).trans (shapeCast_1ab_ab_apply _ _ r j)
  · exact (truncf_apply (ψ := .bf16) _ bitsLt_bf16_f32 _).trans (congrFun (shapeCast_self _ _) _)

end Cert.KernelIdeal.Block

end
-- ==== Proof.DecRegion.lean ====
/-
  The first kernel's region computes the decoder's projection. Its grid has one point per batch index `t`; at `t` the
  activation window holds batch `t` of the decoder activation, the weight window the whole decoder half of the weight, and
  the body writes back block `t` of the result: rows `(t, ·, ·)`. Each written block is the matching block of one
  whole-array function of the arrays the region finds, and the two blocks cover the result array, so the array ends
  holding that function.
-/
import proofs.«145612_j2920577761292_2_alg».proof.Proof.Gen.KernelIdeal.Frame
import proofs.«145612_j2920577761292_2_alg».proof.Proof.DecBlock
import proofs.«145612_j2920577761292_2_alg».proof.Proof.Spec
import Idealize.ShloMosaic.Lib.Pipeline.Value

noncomputable section

open scoped BigOperators

namespace Cert.KernelIdeal.DecRegion

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The block index maps over the grid: the activation and the result move with the batch index, the weight stays. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The activation block at point `t` is batch `t` of the decoder activation. -/
theorem actBlock_apply (c : Dev nD) (t : Fin cfg0.N) (u : Fin 1) (r : Fin 128) (j : Fin 512) (b : Fin 2) (hb : b.val = t.val) :
    (iblk0 V c 0 t : Vec Ideal S1x128x512 .f32) (ix3 u r j) = (V c main_arg1 : S2x128x512.Idx → EReal) (ix3 b r j) := by
  obtain ⟨e0, e1, e2, -⟩ := idx_facts t
  unfold iblk0
  rw [View.read_apply]
  show V c main_arg1 _ = V c main_arg1 _
  refine congrArg (V c main_arg1) (funext fun a => Fin.ext ?_)
  match a with
  | ⟨0, _⟩ => show win0_0.index t (0 : Fin 3) * 1 + 1 * u.val = b.val; omega
  | ⟨1, _⟩ => show win0_0.index t (1 : Fin 3) * 128 + 1 * r.val = r.val; omega
  | ⟨2, _⟩ => show win0_0.index t (2 : Fin 3) * 512 + 1 * j.val = j.val; omega

/-- The weight block at every point is the whole weight half. -/
theorem wBlock_eq (c : Dev nD) (t : Fin cfg0.N) :
    (iblk0 V c 1 t : Vec Ideal S1024x512 .f32) = (V c main_v1 : S1024x512.Idx → EReal) := by
  obtain ⟨-, -, -, e3, e4, -⟩ := idx_facts t
  funext y
  unfold iblk0
  rw [View.read_apply]
  show V c main_v1 _ = V c main_v1 y
  refine congrArg (V c main_v1) (funext fun a => Fin.ext ?_)
  match a with
  | ⟨0, _⟩ => show win0_1.index t (0 : Fin 2) * 1024 + 1 * (y 0).val = (y 0).val; omega
  | ⟨1, _⟩ => show win0_1.index t (1 : Fin 2) * 512 + 1 * (y 1).val = (y 1).val; omega

/-- The body's stored block at point `t`, at `(u, r, o)`, is the projection's entry `(t, r, o)`. -/
theorem block_eq (c : Dev nD) (t : Fin cfg0.N) (u : Fin 1) (r : Fin 128) (o : Fin 1024) (i : S2x128x1024.Idx)
    (h0 : (i 0).val = t.val) (h1 : (i 1).val = r.val) (h2 : (i 2).val = o.val) :
    k0_pay1 (F := Ideal) (iblk0 V c 0 t) (iblk0 V c 1 t) (ix3 u r o)
      = Cert.Joint.decProj (V c main_arg1) (V c main_v1) i := by
  refine (Block.decBlock_apply (iblk0 V c 0 t) (iblk0 V c 1 t) u r o).trans ?_
  unfold Cert.Joint.decProj Cert.Joint.rowDot
  refine Finset.sum_congr rfl fun j _ => ?_
  refine congrArg₂ (· * ·) ?_ ?_
  · refine (actBlock_apply V c t 0 r j (i 0) h0).trans (congrArg (V c main_arg1) (funext fun a => Fin.ext ?_))
    match a with
    | ⟨0, _⟩ => rfl
    | ⟨1, _⟩ => exact h1.symm
    | ⟨2, _⟩ => rfl
  · rw [wBlock_eq]
    refine congrArg (V c main_v1) (funext fun a => Fin.ext ?_)
    match a with
    | ⟨0, _⟩ => exact h2.symm
    | ⟨1, _⟩ => rfl

/-- What point `t` writes back is block `t` of the projection of the arrays the region finds. -/
theorem flushed_eq (c : Dev nD) (t : Fin cfg0.N) :
    (dat0 V c).flushed 2 t
      = ((cfg0.win 2).blk t).view.read (Elt Ideal) (Cert.Joint.decProj (V c main_arg1) (V c main_v1)) := by
  show (cfg0.win 2).cut (grid0.coords t) ((dat0 V c).after 2 t) = _
  rw [after0_2]
  unfold out0_2
  rw [View.canon_unit_zero hz3]
  simp only [View.ld_unit_zero (S := S1x128x512) hz3, View.ld_unit_zero (S := S1024x512) hz2]
  obtain ⟨-, -, -, -, -, e5, e6, e7⟩ := idx_facts t
  show (k0_pay1 (F := Ideal) (iblk0 V c 0 t) (iblk0 V c 1 t) : S1x128x1024.Idx → EReal)
    = fun y => Cert.Joint.decProj (V c main_arg1) (V c main_v1) (((cfg0.win 2).blk t).view.emb y)
  funext y
  obtain ⟨u, r, o, rfl⟩ : ∃ (u : Fin 1) (r : Fin 128) (o : Fin 1024), y = ix3 u r o := ⟨y 0, y 1, y 2, eq_ix3 y⟩
  refine block_eq V c t u r o _ ?_ ?_ ?_
  · show win0_2.index t (0 : Fin 3) * 1 + 1 * u.val = t.val; omega
  · show win0_2.index t (1 : Fin 3) * 128 + 1 * r.val = r.val; omega
  · show win0_2.index t (2 : Fin 3) * 1024 + 1 * o.val = o.val; omega

/-- An index of the result is in point `t`'s block iff each coordinate is in the block's range on its axis. -/
theorem mem_blk (t : Fin cfg0.N) (i : S2x128x1024.Idx) :
    i ∈ ((cfg0.win 2).blk t).view.set ↔ ∀ a : Fin 3, win0_2.index t a * S1x128x1024.size a ≤ (i a).val
      ∧ (i a).val < win0_2.index t a * S1x128x1024.size a + S1x128x1024.size a := by
  show i ∈ ((View.whole main_v3).slice (win0_2.rect t)).set ↔ _
  rw [View.set_slice_whole, Rect.mem_set_unit]
  exact Iff.rfl

/-- Every index of the result is in the block of the point with its batch index. -/
theorem cover (i : S2x128x1024.Idx) :
    ∃ t : Fin cfg0.N, (cfg0.win 2).flush t = true ∧ i ∈ ((cfg0.win 2).blk t).view.set := by
  have hN : cfg0.N = 2 := N_0
  have hi0 : (i 0).val < 2 := (i 0).isLt
  have hi1 : (i 1).val < 128 := (i 1).isLt
  have hi2 : (i 2).val < 1024 := (i 2).isLt
  obtain ⟨t, ht⟩ : ∃ t : Fin cfg0.N, t.val = (i 0).val := ⟨⟨(i 0).val, by rw [hN]; exact hi0⟩, rfl⟩
  obtain ⟨-, -, -, -, -, e5, e6, e7⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 1024 ≤ (i 2).val ∧ (i 2).val < win0_2.index t (2 : Fin 3) * 1024 + 1024; omega

/-- The result array after the region: the projection of the activation and the weight half the region finds. -/
theorem final (c : Dev nD) :
    (dat0 V c).arrAt 2 cfg0.N = Cert.Joint.decProj (V c main_arg1) (V c main_v1) :=
  (dat0 V c).arrAt_eq_of_cover 2 _ (fun t _ => flushed_eq V c t) cover

end Cert.KernelIdeal.DecRegion

end
-- ==== Proof.LibRank3Keepdims.lean ====
/-
  Rank-2 arrays placed in a rank-3 box along a new unit axis, read at an index written by coordinates.

  A matrix `w : [a, c]` becomes a column stack `[a, c, 1]` or a row stack `[a, 1, c]` by a shape cast, and either is then
  broadcast along its unit axis. Read at `(i, j, l)` the first is `w (i, j)` and the second `w (i, l)`: the pair whose
  difference is the table of all pairwise differences `w (i, j) - w (i, l)` of each row `i`. With them: the row
  `[a, 1, c]` cut out of a rank-3 array along its middle axis and cast back to a matrix `[a, c]`.
  (The library's Lib/ValueLayout.lean has the leading-unit-axis casts and the rank-2 row broadcast; these are the
  trailing- and middle-unit-axis forms at rank 3, in its style.)
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    rw [Shape.rowMajor_val_two, Shape.rowMajor_val_three]
    obtain rfl : u = 0 := Subsingleton.elim _ _
    show i.val * b + j.val = (i.val * b + j.val) * 1 + 0
    rw [Nat.mul_one, Nat.add_zero])

/-- An `[a, c]` array cast to `[a, 1, c]` reads, at `(i, u, l)`, the operand at `(i, l)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (l : Fin c) :
    shapeCast ⟨3, ![a, 1, c]⟩ x h (ix3 i u l) = x (ix2 i l) :=
  shapeCast_apply x h _ _ (by
    rw [Shape.rowMajor_val_two, Shape.rowMajor_val_three]
    obtain rfl : u = 0 := Subsingleton.elim _ _
    show i.val * c + l.val = (i.val * 1 + 0) * c + l.val
    rw [Nat.mul_one, Nat.add_zero])

/-- An `[a, 1, c]` array cast to `[a, c]` reads, at `(i, l)`, the operand at `(i, 0, l)`. -/
theorem shapeCast_a1c_ac_apply {a c : ℕ} (x : (⟨3, ![a, 1, c]⟩ : Shape).Idx → α)
    (h : (⟨3, ![a, 1, c]⟩ : Shape).ShapeCasts ⟨2, ![a, c]⟩) (i : Fin a) (l : Fin c) :
    shapeCast ⟨2, ![a, c]⟩ x h (ix2 i l) = x (ix3 i (0 : Fin 1) l) :=
  shapeCast_apply x h _ _ (by
    rw [Shape.rowMajor_val_three, Shape.rowMajor_val_two]
    show (i.val * 1 + 0) * c + l.val = i.val * c + l.val
    rw [Nat.mul_one, Nat.add_zero])

/-- An `[a, b, 1]` array broadcast to `[a, b, c]` reads, at `(i, j, l)`, the operand's one entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, l)`, the operand's one row entry `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

/-- A matrix `w : [a, b]` stood up as columns `[a, b, 1]` and broadcast to `[a, b, c]` reads `w (i, j)` at `(i, j, l)`. -/
theorem broadcastTo_cols_apply {a b c : ℕ} (w : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (l : Fin c) :
    broadcastTo ⟨3, ![a, b, c]⟩ (shapeCast ⟨3, ![a, b, 1]⟩ w h) h' (ix3 i j l) = w (ix2 i j) :=
  (broadcastTo_ab1_abc_apply _ h' i j l).trans (shapeCast_ab_ab1_apply w h i j 0)

/-- A matrix `w : [a, c]` laid down as rows `[a, 1, c]` and broadcast to `[a, b, c]` reads `w (i, l)` at `(i, j, l)`. -/
theorem broadcastTo_rows_apply {a b c : ℕ} (w : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (l : Fin c) :
    broadcastTo ⟨3, ![a, b, c]⟩ (shapeCast ⟨3, ![a, 1, c]⟩ w h) h' (ix3 i j l) = w (ix2 i l) :=
  (broadcastTo_a1c_abc_apply _ h' i j l).trans (shapeCast_ac_a1c_apply w h i 0 l)

/-- The matrix at middle coordinate `o` of a rank-3 array — the slice `[a, 1, c]` from `o` along axis 1, cast to
    `[a, c]` — reads, at `(i, l)`, the array at `(i, o, l)`. -/
theorem sliceRow_apply {a n c : ℕ} (o : ℕ) (X : (⟨3, ![a, n, c]⟩ : Shape).Idx → α)
    (h : (⟨3, ![a, n, c]⟩ : Shape).Slices ![0, o, 0] ⟨3, ![a, 1, c]⟩)
    (h' : (⟨3, ![a, 1, c]⟩ : Shape).ShapeCasts ⟨2, ![a, c]⟩) (i : Fin a) (l : Fin c) :
    shapeCast ⟨2, ![a, c]⟩ (extractStridedSlice ⟨3, ![a, 1, c]⟩ ![0, o, 0] X h) h' (ix2 i l)
      = X (ix3 i ⟨o, Nat.lt_of_lt_of_le (Nat.lt_succ_self o) (h.2 1)⟩ l) :=
  (shapeCast_a1c_ac_apply _ h' i l).trans (slice3_axis1_apply o X h i (0 : Fin 1) l _ rfl)

end Idealize.ShloMosaic.ValueIdx
-- ==== Proof.LibBatchBlocks.lean ====
/-
  Layout operations and reductions of rank-3 blocks [a, b, c] read at explicit coordinates: what a kernel meets when it
  treats a block of a batches of b rows as one matrix of a·b rows and takes statistics over the batch axis.

  * merging the two leading axes by a shape cast, [a, b, c] → [a·b, c], and splitting them again: row i·b + r of the
    matrix is row r of batch i;
  * one row [1, 1, c], and one matrix [1, b, c], broadcast over the leading axes;
  * at the ideal values, a sum over the batch axis (axis 0) and over the lane axis (axis 2) as sums over that axis's
    coordinates;
  * at the ideal values, a plain matrix product into a zero accumulator as the sum over the contraction coordinate, for
    any dimension numbers that contract the left operand's columns with the right operand's rows;
  * the small casts [a, 1] → [a] and [a] → [1, 1, a].
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibBatchBlocks

open Idealize.ShloMosaic Idealize.ShloMosaic.ValueIdx

variable {α : Type}

/-- An [a, b, c] array cast to [n, c] (n = a·b) reads, at row p = i·b + r and column k, the operand at (i, r, k). -/
theorem shapeCast_merge01_apply {a b c n : ℕ} (x : (⟨3, ![a, b, c]⟩ : Shape).Idx → α)
    (h : (⟨3, ![a, b, c]⟩ : Shape).ShapeCasts ⟨2, ![n, c]⟩) (p : Fin n) (i : Fin a) (r : Fin b) (k : Fin c)
    (hp : p.val = i.val * b + r.val) : shapeCast ⟨2, ![n, c]⟩ x h (ix2 p k) = x (ix3 i r k) :=
  shapeCast_apply x h _ _ (by
    rw [Shape.rowMajor_val_three, Shape.rowMajor_val_two]
    show (i.val * b + r.val) * c + k.val = p.val * c + k.val
    rw [hp])

/-- An [n, c] array (n = a·b) cast to [a, b, c] reads, at (i, r, k), the operand at row p = i·b + r and column k. -/
theorem shapeCast_split01_apply {a b c n : ℕ} (x : (⟨2, ![n, c]⟩ : Shape).Idx → α)
    (h : (⟨2, ![n, c]⟩ : Shape).ShapeCasts ⟨3, ![a, b, c]⟩) (p : Fin n) (i : Fin a) (r : Fin b) (k : Fin c)
    (hp : p.val = i.val * b + r.val) : shapeCast ⟨3, ![a, b, c]⟩ x h (ix3 i r k) = x (ix2 p k) :=
  shapeCast_apply x h _ _ (by
    rw [Shape.rowMajor_val_three, Shape.rowMajor_val_two]
    show p.val * c + k.val = (i.val * b + r.val) * c + k.val
    rw [hp])

/-- A row [1, 1, c] broadcast to [a, b, c] reads, at (i, r, k), the row at k. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (r : Fin b) (k : Fin c) :
    broadcastTo ⟨3, ![a, b, c]⟩ v h (ix3 i r k) = v (ix3 (0 : Fin 1) (0 : Fin 1) k) := by
  refine broadcastTo_apply v h (ix3 i r k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A matrix [1, b, c] broadcast to [a, b, c] reads, at (i, r, k), the matrix at (r, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (r : Fin b) (k : Fin c) :
    broadcastTo ⟨3, ![a, b, c]⟩ v h (ix3 i r k) = v (ix3 (0 : Fin 1) r k) := by
  refine broadcastTo_apply v h (ix3 i r k) (ix3 (0 : Fin 1) r k) fun ax => ?_
  match ax with
  | ⟨0, _⟩ => rfl
  | ⟨1, _⟩ =>
    show r.val = if b = 1 then 0 else r.val
    split
    · have := r.isLt; omega
    · rfl
  | ⟨2, _⟩ =>
    show k.val = if c = 1 then 0 else k.val
    split
    · have := k.isLt; omega
    · rfl

/-- An [a, 1] column cast to the vector [a] reads, at i, the column's entry (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector [a] cast to [1, 1, a] reads, at (u, v, i), the vector's entry i. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

/-- At the ideal values the sum of an [a, b, c] block over its batch axis reads, at (r, k), the sum over the batches i of
    the block at (i, r, k). -/
theorem sum_axis0_apply {a b c : ℕ} (src : FVec Ideal ⟨3, ![a, b, c]⟩ .f32)
    (h : Shape.Reduces ⟨3, ![a, b, c]⟩ [0] ⟨2, ![b, c]⟩) (hφ : FKind.Formats .f32)
    (hacc : (0x00000000#32 : BitVec 32) = FKind.add.neutral .f32 hφ) (r : Fin b) (k : Fin c) :
    multiReduction .add [0] ⟨2, ![b, c]⟩ src 0x00000000#32 h hφ hacc (ix2 r k) = ∑ i : Fin a, src (ix3 i r k) := by
  refine (Ideal.multiReduction_add_single src _ h hφ hacc (ix2 r k)).trans ?_
  refine Finset.sum_congr rfl fun i _ => ?_
  exact congrArg src (funext fun ax => Fin.ext (by match ax with | ⟨0, _⟩ => rfl | ⟨1, _⟩ => rfl | ⟨2, _⟩ => rfl))

/-- At the ideal values the sum of an [a, b, c] block over its last axis reads, at (i, r), the sum over k of the block at
    (i, r, k). -/
theorem sum_axis2_apply {a b c : ℕ} (src : FVec Ideal ⟨3, ![a, b, c]⟩ .f32)
    (h : Shape.Reduces ⟨3, ![a, b, c]⟩ [2] ⟨2, ![a, b]⟩) (hφ : FKind.Formats .f32)
    (hacc : (0x00000000#32 : BitVec 32) = FKind.add.neutral .f32 hφ) (i : Fin a) (r : Fin b) :
    multiReduction .add [2] ⟨2, ![a, b]⟩ src 0x00000000#32 h hφ hacc (ix2 i r) = ∑ k : Fin c, src (ix3 i r k) := by
  refine (Ideal.multiReduction_add_single src _ h hφ hacc (ix2 i r)).trans ?_
  refine Finset.sum_congr rfl fun k _ => ?_
  exact congrArg src (funext fun ax => Fin.ext (by match ax with | ⟨0, _⟩ => rfl | ⟨1, _⟩ => rfl | ⟨2, _⟩ => rfl))

/-- At the ideal values a matrix product [n, K] × [K, F] into the zero accumulator reads, at (p, f), the sum over the
    contraction coordinate k of left (p, k) times right (k, f) — for any dimension numbers with one contracted axis of
    extent K whose operand indices are the rows of the left operand and the columns of the right one (the four
    coordinate facts, which compute on a literal record). -/
theorem matmul_rows_apply {n K F : ℕ} (D : DotDims ⟨2, ![n, K]⟩ ⟨2, ![K, F]⟩ ⟨2, ![n, F]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (l : FVec Ideal ⟨2, ![n, K]⟩ .f32) (r : FVec Ideal ⟨2, ![K, F]⟩ .f32)
    (p : Fin n) (f : Fin F) :
    matmul D prec l r (constant ⟨2, ![n, F]⟩ .f32 0x00000000#32) (ix2 p f) = ∑ k : Fin K, l (ix2 p k) * r (ix2 k f) := by
  refine (Ideal.matmul_constant_zero_apply D prec l r (ix2 p f)).trans ?_
  rw [← Equiv.sum_comp (contrEquiv1 D K hr hs).symm]
  refine Finset.sum_congr rfl fun k _ => ?_
  have hk := contrEquiv1_symm_val D K hr hs k
  have el : D.lhsIdx (ix2 p f) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p f) ((contrEquiv1 D K hr hs).symm k) = ix2 k f := funext fun ax => Fin.ext (by
    match ax with
    | ⟨0, _⟩ => exact (hr0 _ _).trans hk
    | ⟨1, _⟩ => exact hr1 _ _)
  rw [el, er]

end Cert.LibBatchBlocks

end
-- ==== Proof.JointBlock.lean ====
/-
  One block of the joint output. The second kernel's body, at a batch index and a tile of 16 encoder frames, holds the
  `[1, 16, 512]` block `x` of the encoder activation, the whole `[1024, 512]` encoder half `w` of the weight and the
  `[1, 128, 1024]` block `d` of the decoder's projection, and stores the `[1, 16, 128, 1024]` block whose entry
  `(0, p, r, o)` is row `p` of `x` against row `o` of `w`, plus `d (0, r, o)`: the encoder's projection is spread over the
  decoder axis, the decoder's over the frame axis, and the two are added.
-/
import proofs.«145612_j2920577761292_2_alg».proof.Proof.Gen.KernelIdeal.Skeleton
import proofs.«145612_j2920577761292_2_alg».proof.Proof.LibRowRowDot
import proofs.«145612_j2920577761292_2_alg».proof.Proof.LibRank3Keepdims
import proofs.«145612_j2920577761292_2_alg».proof.Proof.LibBatchBlocks
import Idealize.ShloMosaic.Lib.ValueIdx
import Idealize.ShloMosaic.Lib.ValueLayout
import Idealize.ShloMosaic.Lib.Pipeline.Value

noncomputable section

open scoped BigOperators

namespace Cert.KernelIdeal.Block

open Cert.KernelIdeal Cert.KernelIdeal.Gen Idealize.ShloMosaic Idealize.ShloMosaic.ValueIdx

/-- Entry `(u, p, r, o)` of the stored block: frame `p` against weight row `o`, plus the decoder projection at `(r, o)`. -/
theorem jointBlock_apply (x0 : Vec Ideal S1x16x512 .f32) (x1 : Vec Ideal S1024x512 .bf16) (x2 : Vec Ideal S1x128x1024 .f32)
    (u : Fin 1) (p : Fin 16) (r : Fin 128) (o : Fin 1024) :
    k1_pay1 (F := Ideal) x0 x1 x2 (ix4 u p r o)
      = (∑ j : Fin 512, x0 (ix3 (0 : Fin 1) p j) * x1 (ix2 o j)) + x2 (ix3 (0 : Fin 1) r o) := by
  unfold k1_pay1
  refine (shapeCast_abc_1abc_apply _ _ u p r o).trans ?_
  refine (addf_apply _ _ _).trans ?_
  refine congrArg₂ (· + ·) ?_ ?_
  · refine (broadcastTo_rows_apply _ _ _ p r o).trans ?_
    refine (Cert.LibRowRowDot.matmul_zero_rows_apply dot_S16x512_S1024x512_S16x1024_1_1_0_0_n_n rfl rfl rfl rfl rfl rfl none _ _ p o).trans ?_
    refine Finset.sum_congr rfl fun j _ => ?_
    refine congrArg₂ (· * ·) ?_ ?_
    · exact (truncf_apply (ψ := .bf16) _ bitsLt_bf16_f32 _).trans (shapeCast_1ab_ab_apply _ _ p j)
    · exact congrFun (shapeCast_self _ _) _
  · refine (Cert.LibBatchBlocks.broadcastTo_1bc_abc_apply _ _ p r o).trans ?_
    exact congrFun (shapeCast_shapeCast _ _ _) _

end Cert.KernelIdeal.Block

end
-- ==== Proof.JointRegion.lean ====
/-
  The second kernel's region computes the joint output from the decoder's projection. Its grid has one point per batch
  index `b` and tile `q` of 16 encoder frames, point `t = 32 b + q`; at `t` the activation window holds frames
  `16 q … 16 q + 15` of batch `b` of the encoder activation, the weight window the whole encoder half of the weight, the
  third window batch `b` of the decoder's projection, and the body writes back the block of rows `(b, 16 q + ·, ·, ·)`.
  Each written block is the matching block of one whole-array function of the arrays the region finds, and the 64
  blocks cover the result array, so the array ends holding that function.
-/
import proofs.«145612_j2920577761292_2_alg».proof.Proof.Gen.KernelIdeal.Frame
import proofs.«145612_j2920577761292_2_alg».proof.Proof.JointBlock
import proofs.«145612_j2920577761292_2_alg».proof.Proof.Spec
import Idealize.ShloMosaic.Lib.Pipeline.Value

noncomputable section

open scoped BigOperators

namespace Cert.KernelIdeal.JointRegion

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The block index maps over the grid: point `t` is batch `t / 32`, frame tile `t % 32`. -/
theorem idx_facts : ∀ t : Fin cfg1.N,
    win1_0.index t (0 : Fin 3) = t.val / 32 ∧ win1_0.index t (1 : Fin 3) = t.val % 32 ∧ win1_0.index t (2 : Fin 3) = 0
    ∧ win1_1.index t (0 : Fin 2) = 0 ∧ win1_1.index t (1 : Fin 2) = 0
    ∧ win1_2.index t (0 : Fin 3) = t.val / 32 ∧ win1_2.index t (1 : Fin 3) = 0 ∧ win1_2.index t (2 : Fin 3) = 0
    ∧ win1_3.index t (0 : Fin 4) = t.val / 32 ∧ win1_3.index t (1 : Fin 4) = t.val % 32
    ∧ win1_3.index t (2 : Fin 4) = 0 ∧ win1_3.index t (3 : Fin 4) = 0 :=
  (by decide +kernel : ∀ t : Fin grid1.N, _)

/-- The activation block at point `t`: frames `16 (t % 32) + ·` of batch `t / 32` of the encoder activation. -/
theorem actBlock_apply (c : Dev nD) (t : Fin cfg1.N) (u : Fin 1) (p : Fin 16) (j : Fin 512) (b : Fin 2) (q : Fin 512)
    (hb : b.val = t.val / 32) (hq : q.val = t.val % 32 * 16 + p.val) :
    (iblk1 V c 0 t : Vec Ideal S1x16x512 .f32) (ix3 u p j) = (V c main_arg0 : S2x512x512.Idx → EReal) (ix3 b q j) := by
  obtain ⟨e0, e1, e2, -⟩ := idx_facts t
  unfold iblk1
  rw [View.read_apply]
  show V c main_arg0 _ = V c main_arg0 _
  refine congrArg (V c main_arg0) (funext fun a => Fin.ext ?_)
  match a with
  | ⟨0, _⟩ => show win1_0.index t (0 : Fin 3) * 1 + 1 * u.val = b.val; omega
  | ⟨1, _⟩ => show win1_0.index t (1 : Fin 3) * 16 + 1 * p.val = q.val; omega
  | ⟨2, _⟩ => show win1_0.index t (2 : Fin 3) * 512 + 1 * j.val = j.val; omega

/-- The weight block at every point is the whole weight half. -/
theorem wBlock_eq (c : Dev nD) (t : Fin cfg1.N) :
    (iblk1 V c 1 t : Vec Ideal S1024x512 .bf16) = (V c main_v2 : S1024x512.Idx → EReal) := by
  obtain ⟨-, -, -, e3, e4, -⟩ := idx_facts t
  funext y
  unfold iblk1
  rw [View.read_apply]
  show V c main_v2 _ = V c main_v2 y
  refine congrArg (V c main_v2) (funext fun a => Fin.ext ?_)
  match a with
  | ⟨0, _⟩ => show win1_1.index t (0 : Fin 2) * 1024 + 1 * (y 0).val = (y 0).val; omega
  | ⟨1, _⟩ => show win1_1.index t (1 : Fin 2) * 512 + 1 * (y 1).val = (y 1).val; omega

/-- The third window's block at point `t` is batch `t / 32` of the decoder's projection. -/
theorem decBlock_apply (c : Dev nD) (t : Fin cfg1.N) (u : Fin 1) (r : Fin 128) (o : Fin 1024) (b : Fin 2)
    (hb : b.val = t.val / 32) :
    (iblk1 V c 2 t : Vec Ideal S1x128x1024 .f32) (ix3 u r o) = (V c main_v3 : S2x128x1024.Idx → EReal) (ix3 b r o) := by
  obtain ⟨-, -, -, -, -, e5, e6, e7, -⟩ := idx_facts t
  unfold iblk1
  rw [View.read_apply]
  show V c main_v3 _ = V c main_v3 _
  refine congrArg (V c main_v3) (funext fun a => Fin.ext ?_)
  match a with
  | ⟨0, _⟩ => show win1_2.index t (0 : Fin 3) * 1 + 1 * u.val = b.val; omega
  | ⟨1, _⟩ => show win1_2.index t (1 : Fin 3) * 128 + 1 * r.val = r.val; omega
  | ⟨2, _⟩ => show win1_2.index t (2 : Fin 3) * 1024 + 1 * o.val = o.val; omega

/-- The body's stored block at point `t`, at `(u, p, r, o)`, is the output's entry `(t / 32, 16 (t % 32) + p, r, o)`. -/
theorem block_eq (c : Dev nD) (t : Fin cfg1.N) (u : Fin 1) (p : Fin 16) (r : Fin 128) (o : Fin 1024) (i : S2x512x128x1024.Idx)
    (h0 : (i 0).val = t.val / 32) (h1 : (i 1).val = t.val % 32 * 16 + p.val) (h2 : (i 2).val = r.val) (h3 : (i 3).val = o.val) :
    k1_pay1 (F := Ideal) (iblk1 V c 0 t) (iblk1 V c 1 t) (iblk1 V c 2 t) (ix4 u p r o)
      = Cert.Joint.addProj (V c main_arg0) (V c main_v2) (V c main_v3) i := by
  refine (Block.jointBlock_apply (iblk1 V c 0 t) (iblk1 V c 1 t) (iblk1 V c 2 t) u p r o).trans ?_
  unfold Cert.Joint.addProj Cert.Joint.rowDot
  refine congrArg₂ (· + ·) (Finset.sum_congr rfl fun j _ => congrArg₂ (· * ·) ?_ ?_) ?_
  · exact actBlock_apply V c t 0 p j (i 0) (i 1) h0 h1
  · rw [wBlock_eq]
    refine congrArg (V c main_v2) (funext fun a => Fin.ext ?_)
    match a with
    | ⟨0, _⟩ => exact h3.symm
    | ⟨1, _⟩ => rfl
  · refine (decBlock_apply V c t 0 r o (i 0) h0).trans (congrArg (V c main_v3) (funext fun a => Fin.ext ?_))
    match a with
    | ⟨0, _⟩ => rfl
    | ⟨1, _⟩ => exact h2.symm
    | ⟨2, _⟩ => exact h3.symm

/-- What point `t` writes back is block `t` of the encoder's projection added onto the decoder's, of the arrays the
    region finds. -/
theorem flushed_eq (c : Dev nD) (t : Fin cfg1.N) :
    (dat1 V c).flushed 3 t
      = ((cfg1.win 3).blk t).view.read (Elt Ideal) (Cert.Joint.addProj (V c main_arg0) (V c main_v2) (V c main_v3)) := by
  show (cfg1.win 3).cut (grid1.coords t) ((dat1 V c).after 3 t) = _
  rw [after1_3]
  unfold out1_3
  rw [View.canon_unit_zero hz4]
  simp only [View.ld_unit_zero (S := S1x16x512) hz3, View.ld_unit_zero (S := S1024x512) hz2,
    View.ld_unit_zero (S := S1x128x1024) hz3]
  obtain ⟨-, -, -, -, -, -, -, -, e8, e9, e10, e11⟩ := idx_facts t
  show (k1_pay1 (F := Ideal) (iblk1 V c 0 t) (iblk1 V c 1 t) (iblk1 V c 2 t) : S1x16x128x1024.Idx → EReal)
    = fun y => Cert.Joint.addProj (V c main_arg0) (V c main_v2) (V c main_v3) (((cfg1.win 3).blk t).view.emb y)
  funext y
  obtain ⟨u, p, r, o, rfl⟩ : ∃ (u : Fin 1) (p : Fin 16) (r : Fin 128) (o : Fin 1024), y = ix4 u p r o :=
    ⟨y 0, y 1, y 2, y 3, eq_ix4 y⟩
  refine block_eq V c t u p r o _ ?_ ?_ ?_ ?_
  · show win1_3.index t (0 : Fin 4) * 1 + 1 * u.val = t.val / 32; omega
  · show win1_3.index t (1 : Fin 4) * 16 + 1 * p.val = t.val % 32 * 16 + p.val; omega
  · show win1_3.index t (2 : Fin 4) * 128 + 1 * r.val = r.val; omega
  · show win1_3.index t (3 : Fin 4) * 1024 + 1 * o.val = o.val; omega

/-- An index of the output is in point `t`'s block iff each coordinate is in the block's range on its axis. -/
theorem mem_blk (t : Fin cfg1.N) (i : S2x512x128x1024.Idx) :
    i ∈ ((cfg1.win 3).blk t).view.set ↔ ∀ a : Fin 4, win1_3.index t a * S1x16x128x1024.size a ≤ (i a).val
      ∧ (i a).val < win1_3.index t a * S1x16x128x1024.size a + S1x16x128x1024.size a := by
  show i ∈ ((View.whole main_v4).slice (win1_3.rect t)).set ↔ _
  rw [View.set_slice_whole, Rect.mem_set_unit]
  exact Iff.rfl

/-- Every index `(b, f, ·, ·)` of the output is in the block of point `32 b + f / 16`. -/
theorem cover (i : S2x512x128x1024.Idx) :
    ∃ t : Fin cfg1.N, (cfg1.win 3).flush t = true ∧ i ∈ ((cfg1.win 3).blk t).view.set := by
  have hN : cfg1.N = 64 := N_1
  have hi0 : (i 0).val < 2 := (i 0).isLt
  have hi1 : (i 1).val < 512 := (i 1).isLt
  have hi2 : (i 2).val < 128 := (i 2).isLt
  have hi3 : (i 3).val < 1024 := (i 3).isLt
  obtain ⟨t, ht⟩ : ∃ t : Fin cfg1.N, t.val = (i 0).val * 32 + (i 1).val / 16 :=
    ⟨⟨(i 0).val * 32 + (i 1).val / 16, by rw [hN]; omega⟩, rfl⟩
  obtain ⟨-, -, -, -, -, -, -, -, e8, e9, e10, e11⟩ := idx_facts t
  refine ⟨t, flush1_3 t, ?_⟩
  rw [mem_blk]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 16 ≤ (i 1).val ∧ (i 1).val < win1_3.index t (1 : Fin 4) * 16 + 16; omega
  | ⟨2, _⟩ => show win1_3.index t (2 : Fin 4) * 128 ≤ (i 2).val ∧ (i 2).val < win1_3.index t (2 : Fin 4) * 128 + 128; omega
  | ⟨3, _⟩ => show win1_3.index t (3 : Fin 4) * 1024 ≤ (i 3).val ∧ (i 3).val < win1_3.index t (3 : Fin 4) * 1024 + 1024; omega

/-- The output array after the region: the encoder's projection added onto the decoder projection the region finds. -/
theorem final (c : Dev nD) :
    (dat1 V c).arrAt 3 cfg1.N = Cert.Joint.addProj (V c main_arg0) (V c main_v2) (V c main_v3) :=
  (dat1 V c).arrAt_eq_of_cover 3 _ (fun t _ => flushed_eq V c t) cover

end Cert.KernelIdeal.JointRegion

end
-- ==== Proof.KernelRun.lean ====
/-
  The idealized kernel program, run from any memory, ends with its result array holding the joint output of the argument
  arrays. The program slices the weight into its encoder half (columns 0–511) and its decoder half (columns 512–1023),
  rounds the encoder half to the narrow format (the identity on the extended reals), runs the first kernel on the decoder
  activation and the decoder half — leaving the decoder's projection — and then the second kernel on the encoder
  activation, the encoder half and that projection. Reading the buffers at each boundary back to the launch memory, the
  result is the encoder's projection added onto the decoder's: the joint output.
-/
import proofs.«145612_j2920577761292_2_alg».proof.Proof.Gen.KernelIdeal.Frame
import proofs.«145612_j2920577761292_2_alg».proof.Proof.DecRegion
import proofs.«145612_j2920577761292_2_alg».proof.Proof.JointRegion
import proofs.«145612_j2920577761292_2_alg».proof.Proof.Spec
import Idealize.ShloMosaic.Lib.StableHlo.Run
import Idealize.ShloMosaic.Lib.ValueIdx

set_option maxRecDepth 16384

noncomputable section

namespace Cert.KernelIdeal.JointRun

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The encoder half of the weight: its columns 0–511. -/
abbrev wEnc (c : Dev nD) : S1024x512.Idx → EReal :=
  extractStridedSlice S1024x512 ![0, 0] (m ((c : Thread nD τ).loc main_arg2)) slices_S1024x1024_S1024x512_0_0
/-- The decoder half of the weight: its columns 512–1023. -/
abbrev wDec (c : Dev nD) : S1024x512.Idx → EReal :=
  extractStridedSlice S1024x512 ![0, 512] (m ((c : Thread nD τ).loc main_arg2)) slices_S1024x1024_S1024x512_0_512

/-! ## The buffers the two regions find -/

/-- The first region finds the decoder activation as launched, -/
theorem V1_arg1 (c : Dev nD) : V1 m ρ c main_arg1 = m ((c : Thread nD τ).loc main_arg1) := by
  show StableHlo.after hostOps0 (W0 m ρ c) (Proc.devRef .tc main_arg1) = _
  after_results
  try rfl
/-- and the decoder half of the weight. -/
theorem V1_v1 (c : Dev nD) : (V1 m ρ c main_v1 : S1024x512.Idx → EReal) = wDec m c := by
  show StableHlo.after hostOps0 (W0 m ρ c) (Proc.devRef .tc main_v1) = _
  after_results
  try rfl
/-- The second region finds the encoder activation as launched, -/
theorem V2_arg0 (c : Dev nD) : V2 m ρ c main_arg0 = m ((c : Thread nD τ).loc main_arg0) := by
  refine (W2_of_ne m ρ c main_arg0 (by decide)).trans ?_
  show StableHlo.after hostOps0 (W0 m ρ c) (Proc.devRef .tc main_arg0) = _
  after_results
  try rfl
/-- the encoder half of the weight (rounded to the narrow format: the same extended reals), -/
theorem V2_v2 (c : Dev nD) : (V2 m ρ c main_v2 : S1024x512.Idx → EReal) = wEnc m c := by
  refine (W2_of_ne m ρ c main_v2 (by decide)).trans ?_
  show StableHlo.after hostOps0 (W0 m ρ c) (Proc.devRef .tc main_v2) = _
  after_results
  try rfl
/-- and the decoder's projection, which the first region left. -/
theorem V2_v3 (c : Dev nD) :
    (V2 m ρ c main_v3 : S2x128x1024.Idx → EReal) = Cert.Joint.decProj (m ((c : Thread nD τ).loc main_arg1)) (wDec m c) := by
  refine (W2_arr m ρ c 2).trans ?_
  rw [DecRegion.final (V1 m ρ) c, V1_arg1, V1_v1]

/-- The result array after the second region is the joint output of the argument arrays. -/
theorem W3_v4 (c : Dev nD) :
    (W3 m ρ c (Proc.devRef .tc main_v4) : S2x512x128x1024.Idx → EReal)
      = Cert.Joint.joint (m ((c : Thread nD τ).loc main_arg0)) (m ((c : Thread nD τ).loc main_arg1)) (wEnc m c) (wDec m c) := by
  refine (W3_arr m ρ c 3).trans ?_
  rw [JointRegion.final (V2 m ρ) c, V2_arg0, V2_v2, V2_v3, Cert.Joint.joint_eq_addProj]

/-! ## The run -/

-- the launch theorem's implicit arguments are found by unifying its conclusion with this one, which takes unfolding
-- plain definitions in a metavariable's type
set_option backward.isDefEq.respectTransparency.types false in
/-- From any memory with zero counters, every weakly fair execution of the program terminates, nothing faulting, with
    the result array at the joint output of the argument arrays and the argument arrays as launched: the launch over the
    program's segments, the last thread state read against the final state, the result by `W3_v4`. -/
theorem run : θ_run defs (onTc (τ := τ) (main (F := Ideal))) ⟨m, fun _ => 0, ρ⟩ (fun r => ∀ c : Dev nD,
      r.2.mem ((c.tc : Thread nD τ).loc main_v4)
        = Cert.Joint.joint (m ((c : Thread nD τ).loc main_arg0)) (m ((c : Thread nD τ).loc main_arg1)) (wEnc m c) (wDec m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v4 (by decide))).trans (W3_v4 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.JointRun

end
-- ==== Proof.lean ====
/-
  A joint network's projection, computed two ways, is one function on the extended reals.

  The inputs are an encoder activation `enc : [2, 512, 512]`, a decoder activation `dec : [2, 128, 512]` and a weight
  `W : [1024, 1024]` whose columns 0–511 act on encoder features and columns 512–1023 on decoder features. The output
  `[2, 512, 128, 1024]` holds, at `(b, t, u, v)`,
      Σ_d enc[b, t, d] · W[v, d]  +  Σ_d dec[b, u, d] · W[v, 512 + d].
  The reference forms both projections by contractions on the host, spreads each along the other's axis and adds. The
  kernel program forms the decoder's projection in a first kernel (one block per batch index) and, in a second kernel,
  multiplies a tile of 16 encoder frames by the encoder half of the weight and adds the resident decoder projection,
  spread over the frames (one block per batch index and tile). Its operands pass through a narrow float format on their
  way into the matrix unit; on the extended reals a change of format is the identity, the matrix unit's product into a
  zero accumulator is the plain sum over the 512 features, and so is the host's contraction. Both programs therefore
  end with the same sums of the same products in the same order of operands, and no law beyond that is used: the
  precondition (finite inputs) is never opened.

  The three frames are the generated ones (the reference's from its generated run); the idealization rewrote nothing, so
  there is nothing to preserve; the value claim joins `JointRun.run` (the kernel program's result array) and
  `RefValue.result_eq` (the reference's last stage) at the common function `Cert.Joint.joint`.
-/
import proofs.«145612_j2920577761292_2_alg».proof.Defs
import proofs.«145612_j2920577761292_2_alg».proof.Proof.Gen.Kernel
import proofs.«145612_j2920577761292_2_alg».proof.Proof.Gen.Kernel.Skeleton
import proofs.«145612_j2920577761292_2_alg».proof.Proof.Gen.Kernel.Launch
import proofs.«145612_j2920577761292_2_alg».proof.Proof.Gen.Kernel.Points
import proofs.«145612_j2920577761292_2_alg».proof.Proof.Gen.Kernel.Frame
import proofs.«145612_j2920577761292_2_alg».proof.Proof.Gen.KernelIdeal
import proofs.«145612_j2920577761292_2_alg».proof.Proof.Gen.KernelIdeal.Skeleton
import proofs.«145612_j2920577761292_2_alg».proof.Proof.Gen.KernelIdeal.Launch
import proofs.«145612_j2920577761292_2_alg».proof.Proof.Gen.KernelIdeal.Points
import proofs.«145612_j2920577761292_2_alg».proof.Proof.Gen.KernelIdeal.Frame
import proofs.«145612_j2920577761292_2_alg».proof.Proof.Gen.ReferenceIdeal
import proofs.«145612_j2920577761292_2_alg».proof.Proof.Gen.Pre_finite_inputs
import proofs.«145612_j2920577761292_2_alg».proof.Proof.Gen.ReferenceIdeal.Run
import proofs.«145612_j2920577761292_2_alg».proof.Proof.Gen.ReferenceIdeal.Read
import proofs.«145612_j2920577761292_2_alg».proof.Proof.RefValue
import proofs.«145612_j2920577761292_2_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the arguments both programs end with the joint output of the encoder activation, the decoder
    activation and the two column halves of the weight. -/
theorem algebraic : Cert.algebraic_KernelIdeal_ReferenceIdeal := by
  intro m ρ m' ρ' _ hagree
  refine ⟨_, Cert.KernelIdeal.JointRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
